-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1200000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S100000x1 : Shape := ⟨2, ![100000, 1]⟩
abbrev S1200000x64 : Shape := ⟨2, ![1200000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 53
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .f32⟩
  | .hbm, ⟨13, _⟩ => ⟨S1200000, .f32⟩
  | .hbm, ⟨14, _⟩ => ⟨S_, .f32⟩
  | .hbm, ⟨15, _⟩ => ⟨S100000, .f32⟩
  | .hbm, ⟨16, _⟩ => ⟨S1200000x1, .i32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1200000, .i32⟩
  | .hbm, ⟨21, _⟩ => ⟨S1200000, .i1⟩
  | .hbm, ⟨22, _⟩ => ⟨S_, .i32⟩
  | .hbm, ⟨23, _⟩ => ⟨S1200000, .i32⟩
  | .hbm, ⟨24, _⟩ => ⟨S1200000, .i32⟩
  | .hbm, ⟨25, _⟩ => ⟨S1200000, .i32⟩
  | .hbm, ⟨26, _⟩ => ⟨S1200000x1, .i32⟩
  | .hbm, ⟨27, _⟩ => ⟨S1200000x64, .f32⟩
  | .hbm, ⟨28, _⟩ => ⟨S_, .f32⟩
  | .hbm, ⟨29, _⟩ => ⟨S100000x64, .f32⟩
  | .hbm, ⟨30, _⟩ => ⟨S1200000x1, .i32⟩
  | .hbm, ⟨31, _⟩ => ⟨S100000x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S100000x64, .f32⟩
  | .hbm, ⟨36, _⟩ => ⟨S_, .i32⟩
  | .hbm, ⟨37, _⟩ => ⟨S1200000, .i32⟩
  | .hbm, ⟨38, _⟩ => ⟨S1200000, .i1⟩
  | .hbm, ⟨39, _⟩ => ⟨S_, .i32⟩
  | .hbm, ⟨40, _⟩ => ⟨S1200000, .i32⟩
  | .hbm, ⟨41, _⟩ => ⟨S1200000, .i32⟩
  | .hbm, ⟨42, _⟩ => ⟨S1200000, .i32⟩
  | .hbm, ⟨43, _⟩ => ⟨S1200000x1, .i32⟩
  | .hbm, ⟨44, _⟩ => ⟨S1200000x64, .f32⟩
  | .hbm, ⟨45, _⟩ => ⟨S_, .f32⟩
  | .hbm, ⟨46, _⟩ => ⟨S100000x64, .f32⟩
  | .hbm, ⟨47, _⟩ => ⟨S1200000x1, .i32⟩
  | .hbm, ⟨48, _⟩ => ⟨S100000x64, .f32⟩
  | .hbm, ⟨49, _⟩ => ⟨S64x64, .f32⟩
  | .hbm, ⟨50, _⟩ => ⟨S64x64, .f32⟩
  | .hbm, ⟨51, _⟩ => ⟨S1x64, .f32⟩
  | .hbm, ⟨52, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_3 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  transposes_S64x64_S64x64_1_0 : S64x64.Transposes [1, 0] S64x64
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .f32 = 32 ∨ (Rect.block (s := S100000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v32) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S64x64 : Shape := ⟨2, ![64, 64]⟩
abbrev S64 : Shape := ⟨1, ![64]⟩
abbrev S1x1200000 : Shape := ⟨2, ![1, 1200000]⟩
abbrev S1200000 : Shape := ⟨1, ![1200000]⟩
abbrev S_ : Shape := ⟨0, ![]⟩
abbrev S1200000x1 : Shape := ⟨2, ![1200000, 1]⟩
abbrev S1200000x64 : Shape := ⟨2, ![1200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1200000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x1200000, .i32⟩
  | .hbm, ⟨9, _⟩ => ⟨S1200000, .i32⟩
  | .hbm, ⟨10, _⟩ => ⟨S1x1200000, .i32⟩
  | .hbm, ⟨11, _⟩ => ⟨S1200000, .i32⟩
  | .hbm, ⟨12, _⟩ => ⟨S_, .i32⟩
  | .hbm, ⟨13, _⟩ => ⟨S1200000, .i32⟩
  | .hbm, ⟨14, _⟩ => ⟨S1200000, .i1⟩
  | .hbm, ⟨15, _⟩ => ⟨S_, .i32⟩
  | .hbm, ⟨16, _⟩ => ⟨S1200000, .i32⟩
  | .hbm, ⟨17, _⟩ => ⟨S1200000, .i32⟩
  | .hbm, ⟨18, _⟩ => ⟨S1200000, .i32⟩
  | .hbm, ⟨19, _⟩ => ⟨S1200000x1, .i32⟩
  | .hbm, ⟨20, _⟩ => ⟨S1200000x64, .f32⟩
  | .hbm, ⟨21, _⟩ => ⟨S_, .f32⟩
  | .hbm, ⟨22, _⟩ => ⟨S100000x64, .f32⟩
  | .hbm, ⟨23, _⟩ => ⟨S1200000x1, .i32⟩
  | .hbm, ⟨24, _⟩ => ⟨S100000x64, .f32⟩
  | .hbm, ⟨25, _⟩ => ⟨S_, .f32⟩
  | .hbm, ⟨26, _⟩ => ⟨S1200000, .f32⟩
  | .hbm, ⟨27, _⟩ => ⟨S_, .f32⟩
  | .hbm, ⟨28, _⟩ => ⟨S100000, .f32⟩
  | .hbm, ⟨29, _⟩ => ⟨S1200000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .i32⟩
  | .hbm, ⟨49, _⟩ => ⟨S1200000, .i32⟩
  | .hbm, ⟨50, _⟩ => ⟨S1200000, .i1⟩
  | .hbm, ⟨51, _⟩ => ⟨S_, .i32⟩
  | .hbm, ⟨52, _⟩ => ⟨S1200000, .i32⟩
  | .hbm, ⟨53, _⟩ => ⟨S1200000, .i32⟩
  | .hbm, ⟨54, _⟩ => ⟨S1200000, .i32⟩
  | .hbm, ⟨55, _⟩ => ⟨S1200000x1, .i32⟩
  | .hbm, ⟨56, _⟩ => ⟨S1200000x64, .f32⟩
  | .hbm, ⟨57, _⟩ => ⟨S_, .f32⟩
  | .hbm, ⟨58, _⟩ => ⟨S100000x64, .f32⟩
  | .hbm, ⟨59, _⟩ => ⟨S1200000x1, .i32⟩
  | .hbm, ⟨60, _⟩ => ⟨S100000x64, .f32⟩
  | .hbm, ⟨61, _⟩ => ⟨S_, .f32⟩
  | .hbm, ⟨62, _⟩ => ⟨S1200000, .f32⟩
  | .hbm, ⟨63, _⟩ => ⟨S_, .f32⟩
  | .hbm, ⟨64, _⟩ => ⟨S100000, .f32⟩
  | .hbm, ⟨65, _⟩ => ⟨S1200000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S64x64, .f32⟩
  | .hbm, ⟨76, _⟩ => ⟨S100000x64, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S100000_S1200000x1_S1200000_n_0_0_1_wf : ScatterDims.WF S100000 S1200000x1 S1200000 [] [0] [0] 1
  dot_S100000x64_S64x64_S100000x64_1_0_0_1_n_n_wf : DotDims.WF S100000x64 S64x64 S100000x64 [1] [0] [0] [1] [] []

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.SageRun.lean ====
/-
  The idealized kernel program's run with its result named.

  The program is two grid launches among stretches of host operations. Its run ends with every buffer outside the launches'
  staging memory holding the contents the last boundary names: the host stretches applied to the launch memory, and each
  launch's output array at what its grid steps wrote back. So every weakly fair execution terminates without a fault, the
  argument arrays unchanged, and the result array holding the second launch's output array read off that last boundary.
-/
import proofs.«180251_j46351287058738_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the last boundary's contents and the
    arguments as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.RunValue

end
-- ==== Proof.SageSpec.lean ====
/-
  One layer of a mean-aggregating graph convolution, read at one entry.

  For a node (row) `p` and an output feature (column) `q` the layer's value is

      (∑ₖ (S p k / max (C p) 1) · WL k q) + (∑ₖ X p k · WR k q) + B q

  where `S` holds, per node, the sum of its neighbours' features, `C` the node's number of incoming edges kept as a
  column, `X` the node's own features, `WL` and `WR` the two weight matrices already transposed (input feature along
  the rows) and `B` the bias kept as a row. Dividing by `max (C p) 1` makes the first term the mean over the
  neighbours and leaves an isolated node's (zero) sum as it is. All of it is over the extended reals: the quotient is
  the extended reals' own, the sums are finite sums in a commutative monoid, and nothing is assumed finite.

  The number of rows `n` is a parameter: the same formula describes a block of rows and the whole array, and
  `layerAt_congr` says that a block whose row `p` is row `r p` of the arrays — every operand read where the formula reads
  it — computes the arrays' entry of row `r p`.
-/
import Idealize.ShloMosaic.Lib.ValueIdx
import Idealize.ShloMosaic.PureOps.Ideal.Laws

noncomputable section

namespace Cert.Sage

open Idealize.ShloMosaic Idealize.ShloMosaic.ValueIdx

/-- The extended real the f32 word of `1.0` denotes. It is never evaluated: both programs clamp the degree against the
    same word. -/
abbrev oneW : EReal := Ideal.ofBits .f32 0x3F800000#32

/-- The extended real the f32 word of `0.0` denotes (the rectifier's floor; the same word in both programs). -/
abbrev zeroW : EReal := Ideal.ofBits .f32 0x00000000#32

/-- Entry `(p, q)` of one layer before the rectifier: mean of the neighbours through `WL`, the node itself through
    `WR`, plus the bias. -/
def layerAt {n : ℕ} (S : (⟨2, ![n, 64]⟩ : Shape).Idx → EReal) (C : (⟨2, ![n, 1]⟩ : Shape).Idx → EReal)
    (X : (⟨2, ![n, 64]⟩ : Shape).Idx → EReal) (WL WR : (⟨2, ![64, 64]⟩ : Shape).Idx → EReal)
    (B : (⟨2, ![1, 64]⟩ : Shape).Idx → EReal) (p : Fin n) (q : Fin 64) : EReal :=
  (∑ k : Fin 64, Ideal.div (S (ix2 p k)) (max (C (ix2 p (0 : Fin 1))) oneW) * WL (ix2 k q))
    + (∑ k : Fin 64, X (ix2 p k) * WR (ix2 k q)) + B (ix2 (0 : Fin 1) q)

/-- The formula reads `S`, `X` at row `p`, `C` at (p, 0), the weights everywhere and `B` at row 0: operands that agree there,
    a block's row `p` being the arrays' row `r p`, give the same entry. -/
theorem layerAt_congr {b n : ℕ} (r : Fin b → Fin n)
    (S' : (⟨2, ![b, 64]⟩ : Shape).Idx → EReal) (C' : (⟨2, ![b, 1]⟩ : Shape).Idx → EReal)
    (X' : (⟨2, ![b, 64]⟩ : Shape).Idx → EReal) (WL' WR' : (⟨2, ![64, 64]⟩ : Shape).Idx → EReal)
    (B' : (⟨2, ![1, 64]⟩ : Shape).Idx → EReal)
    (S : (⟨2, ![n, 64]⟩ : Shape).Idx → EReal) (C : (⟨2, ![n, 1]⟩ : Shape).Idx → EReal)
    (X : (⟨2, ![n, 64]⟩ : Shape).Idx → EReal) (WL WR : (⟨2, ![64, 64]⟩ : Shape).Idx → EReal)
    (B : (⟨2, ![1, 64]⟩ : Shape).Idx → EReal)
    (hS : ∀ p k, S' (ix2 p k) = S (ix2 (r p) k)) (hC : ∀ p, C' (ix2 p (0 : Fin 1)) = C (ix2 (r p) (0 : Fin 1)))
    (hX : ∀ p k, X' (ix2 p k) = X (ix2 (r p) k))
    (hWL : ∀ k q, WL' (ix2 k q) = WL (ix2 k q)) (hWR : ∀ k q, WR' (ix2 k q) = WR (ix2 k q))
    (hB : ∀ q, B' (ix2 (0 : Fin 1) q) = B (ix2 (0 : Fin 1) q)) (p : Fin b) (q : Fin 64) :
    layerAt S' C' X' WL' WR' B' p q = layerAt S C X WL WR B (r p) q := by
  unfold layerAt
  simp only [hS, hC, hX, hWL, hWR, hB]

end Cert.Sage

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibKeepdims.lean ====
/-
  Two layout operations of a row reduction kept as a column, read at coordinates: a vector of `a` entries cast to
  an `a × 1` column, and such a column laid along the `b` columns of an `a × b` matrix. Entry (i, ·) of either is
  entry `i` of the vector: the cast keeps the row-major position, and the broadcast reads position 0 of the unit axis.
-/
import Idealize.ShloMosaic.Lib.ValueIdx
import Idealize.ShloMosaic.Lib.Pipeline.Value

namespace Cert.Keepdims

open Idealize.ShloMosaic Idealize.ShloMosaic.ValueIdx

variable {α : Type}

/-- A vector cast to a column: entry (i, u) of the column is entry `i` of the vector (the unit coordinate `u` is 0, so
    the row-major position `i · 1 + u` is `i`). -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column laid along every column of a matrix: entry (p, c) of the matrix is entry (p, 0) of the column. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.SagePayload.lean ====
/-
  What one grid step of each kernel stores, read at one entry.

  A step loads a block of 5000 node rows — the neighbour sums, the degree column, the nodes' own features — and the two
  64 × 64 weight matrices and the bias row whole, and stores one 5000 × 64 block. Entry (p, q) of that block is the layer's
  value `layerAt … p q` of the loaded blocks (first kernel: rectified, `max · 0`; second kernel: as it is). Reading it
  takes: a cast of a block to its own shape is the block; the clamped degree column laid along the 64 columns reads
  column 0; a change of float format is the identity on the extended reals; each matrix product into the zero splat is
  the plain sum over the 64 contracted positions; the bias row laid along the 5000 rows reads row 0.
-/
import proofs.«180251_j46351287058738_2_alg».proof.Proof.Gen.KernelIdeal.Skeleton
import proofs.«180251_j46351287058738_2_alg».proof.Proof.SageSpec
import proofs.«180251_j46351287058738_2_alg».proof.Proof.LibPlainMatmul
import proofs.«180251_j46351287058738_2_alg».proof.Proof.LibKeepdims
import proofs.«180251_j46351287058738_2_alg».proof.Proof.LibRowBroadcast
import Idealize.ShloMosaic.Lib.Pipeline.Value
import Idealize.ShloMosaic.Lib.ValueIdx

noncomputable section

namespace Cert.Sage.Payload

open Idealize.ShloMosaic Idealize.ShloMosaic.ValueIdx Cert.KernelIdeal Cert.KernelIdeal.Gen

/-- Entry (p, k) of the mean-aggregated block: the neighbour sum over the degree clamped below by one (the clamped degree
    column laid along the columns reads its column 0; the change of format is the identity). -/
theorem mean_apply (v0 : Vec Ideal S5000x1 .f32) (v2 : Vec Ideal S5000x64 .f32) (p : Fin 5000) (k : Fin 64) :
    (truncf (F := Ideal) FTy.bf16
        (divf (F := Ideal) v2 (broadcastTo S5000x64 (maximumf (F := Ideal) v0 (broadcast S5000x1 (FloatOps.ofBits (F := Ideal) FTy.f32 0x3F800000#32)))
          broadcasts_S5000x1_S5000x64)) bitsLt_bf16_f32 : FVec Ideal S5000x64 .bf16) (ix2 p k)
      = Ideal.div (v2 (ix2 p k)) (max (v0 (ix2 p (0 : Fin 1))) oneW) := by
  show Ideal.div (v2 (ix2 p k)) (broadcastTo S5000x64 (maximumf (F := Ideal) v0 (broadcast S5000x1 (FloatOps.ofBits (F := Ideal) FTy.f32 0x3F800000#32)))
          broadcasts_S5000x1_S5000x64 (ix2 p k)) = _
  rw [Cert.Keepdims.broadcastTo_a1_ab_apply]
  rfl

/-- The layer before the rectifier, as the two kernels spell it: product of the mean-aggregated block with the first weight
    matrix, plus product of the nodes' own block with the second, plus the bias row laid along the rows. -/
theorem body_apply (v0 : Vec Ideal S5000x1 .f32) (v2 v9 : Vec Ideal S5000x64 .f32) (v11 v14 : Vec Ideal S64x64 .f32)
    (v20 : Vec Ideal S1x64 .f32) (p : Fin 5000) (q : Fin 64) :
    (addf (F := Ideal)
        (addf (F := Ideal)
          (matmul (F := Ideal) dot_S5000x64_S64x64_S5000x64_1_0_0_1_n_n none
            (truncf (F := Ideal) FTy.bf16
              (divf (F := Ideal) v2
                (broadcastTo S5000x64 (maximumf (F := Ideal) v0 (broadcast S5000x1 (FloatOps.ofBits (F := Ideal) FTy.f32 0x3F800000#32)))
                  broadcasts_S5000x1_S5000x64))
              bitsLt_bf16_f32)
            (truncf (F := Ideal) FTy.bf16 v11 bitsLt_bf16_f32) (constant (F := Ideal) S5000x64 FTy.f32 0x00000000#32))
          (matmul (F := Ideal) dot_S5000x64_S64x64_S5000x64_1_0_0_1_n_n none (truncf (F := Ideal) FTy.bf16 v9 bitsLt_bf16_f32)
            (truncf (F := Ideal) FTy.bf16 v14 bitsLt_bf16_f32) (constant (F := Ideal) S5000x64 FTy.f32 0x00000000#32)))
        (broadcastTo S5000x64 v20 broadcasts_S1x64_S5000x64) : FVec Ideal S5000x64 .f32) (ix2 p q)
      = layerAt v2 v0 v9 v11 v14 v20 p q := by
  unfold layerAt
  refine congrArg₂ (· + ·) (congrArg₂ (· + ·) ?_ ?_) ?_
  · refine (Cert.PlainMatmul.matmul_zero_apply 5000 64 64 none _ _ p q).trans (Finset.sum_congr rfl fun k _ => ?_)
    exact congrArg (fun z => z * v11 (ix2 k q)) (mean_apply v0 v2 p k)
  · exact Cert.PlainMatmul.matmul_zero_apply 5000 64 64 none _ _ p q
  · exact Cert.Lib.RowBroadcast.broadcastTo_1b_ab_apply (by decide) v20 broadcasts_S1x64_S5000x64 p q

/-- The first kernel's stored block at (p, q): the layer's value of the loaded blocks, rectified. -/
theorem pay0_apply (v0 : Vec Ideal S5000x1 .f32) (v2 v9 : Vec Ideal S5000x64 .f32) (v11 v14 : Vec Ideal S64x64 .f32)
    (v20 : Vec Ideal S1x64 .f32) (p : Fin 5000) (q : Fin 64) :
    k0_pay1 (F := Ideal) v0 v2 v9 v11 v14 v20 (ix2 p q) = max (layerAt v2 v0 v9 v11 v14 v20 p q) zeroW := by
  unfold k0_pay1
  simp only [shapeCast_self]
  exact congrArg (fun z => max z zeroW) (body_apply v0 v2 v9 v11 v14 v20 p q)

/-- The second kernel's stored block at (p, q): the layer's value of the loaded blocks. -/
theorem pay1_apply (v0 : Vec Ideal S5000x1 .f32) (v2 v9 : Vec Ideal S5000x64 .f32) (v12 v15 : Vec Ideal S64x64 .f32)
    (v21 : Vec Ideal S1x64 .f32) (p : Fin 5000) (q : Fin 64) :
    k1_pay1 (F := Ideal) v0 v2 v9 v12 v15 v21 (ix2 p q) = layerAt v2 v0 v9 v12 v15 v21 p q := by
  unfold k1_pay1
  simp only [shapeCast_self]
  exact body_apply v0 v2 v9 v12 v15 v21 p q

end Cert.Sage.Payload

end
-- ==== Proof.SageRegion0.lean ====
/-
  The array the first launch leaves: every row's layer value, rectified.

  The grid has 20 steps; step `t` loads rows 5000·t … 5000·t + 4999 of the neighbour sums, of the degree column and of the
  node features, the two weight matrices and the bias row whole, and writes back rows 5000·t … 5000·t + 4999 of the output.
  What it writes back is the layer's value of the loaded blocks, so of the arrays at those rows; the 20 blocks tile the
  100000 rows, so after the launch the output array holds, at every (row, column), the rectified layer value of the arrays
  as the launch found them.
-/
import proofs.«180251_j46351287058738_2_alg».proof.Proof.Gen.KernelIdeal.Frame
import proofs.«180251_j46351287058738_2_alg».proof.Proof.SagePayload
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output are at block (t, 0), the weights and
    the bias at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The array the launch leaves, as one function of the arrays it finds. -/
def out (c : Dev nD) : S100000x64.Idx → EReal := fun i =>
  max (layerAt (V c main_v18) (V c main_v8) (V c main_arg0) (V c main_v19) (V c main_v20) (V c main_v21) (i 0) (i 1)) zeroW

theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext j
  show k0_pay1 (iblk0 V c 1 t) (iblk0 V c 0 t) (iblk0 V c 2 t) (iblk0 V c 3 t) (iblk0 V c 4 t) (iblk0 V c 5 t) j
      = out V c (((cfg0.win 6).blk t).view.emb j)
  obtain ⟨e00, e01, e10, e11, e20, e21, e30, e31, e40, e41, e50, e51, e60, e61⟩ := index_facts t
  have ht : t.val < 20 := lt_of_lt_of_eq t.isLt N_0
  have hj0 : (j 0).val < 5000 := (j 0).isLt
  have hj1 : (j 1).val < 64 := (j 1).isLt
  refine ((congrArg (k0_pay1 (iblk0 V c 1 t) (iblk0 V c 0 t) (iblk0 V c 2 t) (iblk0 V c 3 t) (iblk0 V c 4 t) (iblk0 V c 5 t))
      (eq_ix2 (n0 := 5000) (n1 := 64) j)).trans
    (Cert.Sage.Payload.pay0_apply (iblk0 V c 1 t) (iblk0 V c 0 t) (iblk0 V c 2 t) (iblk0 V c 3 t) (iblk0 V c 4 t)
      (iblk0 V c 5 t) (j 0) (j 1))).trans ?_
  unfold out
  refine congrArg (fun z => max z zeroW) ?_
  have h0 : (⟨t.val * 5000 + (j 0).val, by omega⟩ : Fin 100000) = (((cfg0.win 6).blk t).view.emb j) 0 :=
    Fin.ext (by show t.val * 5000 + (j 0).val = win0_6.index t (0 : Fin 2) * 5000 + 1 * (j 0).val; omega)
  have h1 : (j 1 : Fin 64) = (((cfg0.win 6).blk t).view.emb j) 1 :=
    Fin.ext (by show (j 1).val = win0_6.index t (1 : Fin 2) * 64 + 1 * (j 1).val; omega)
  refine (layerAt_congr (fun p : Fin 5000 => (⟨t.val * 5000 + p.val, by have := p.isLt; omega⟩ : Fin 100000))
    (iblk0 V c 0 t) (iblk0 V c 1 t) (iblk0 V c 2 t) (iblk0 V c 3 t) (iblk0 V c 4 t) (iblk0 V c 5 t)
    (V c main_v18) (V c main_v8) (V c main_arg0) (V c main_v19) (V c main_v20) (V c main_v21)
    ?_ ?_ ?_ ?_ ?_ ?_ (j 0) (j 1)).trans
    (congrArg₂ (layerAt (V c main_v18) (V c main_v8) (V c main_arg0) (V c main_v19) (V c main_v20) (V c main_v21)) h0 h1)
  · intro p k
    show V c main_v18 (((cfg0.win 0).blk t).view.emb (ix2 p k)) = V c main_v18 _
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 64 + 1 * k.val = k.val; omega
  · intro p
    show V c main_v8 (((cfg0.win 1).blk t).view.emb (ix2 p (0 : Fin 1))) = V c main_v8 _
    refine congrArg _ (funext fun a => Fin.ext ?_)
    match a with
    | ⟨0, _⟩ => show win0_1.index t (0 : Fin 2) * 5000 + 1 * p.val = t.val * 5000 + p.val; omega
    | ⟨1, _⟩ => show win0_1.index t (1 : Fin 2) * 1 + 1 * 0 = 0; omega
  · intro p k
    show V c main_arg0 (((cfg0.win 2).blk t).view.emb (ix2 p k)) = V c main_arg0 _
    refine congrArg _ (funext fun a => Fin.ext ?_)
    match a with
    | ⟨0, _⟩ => show win0_2.index t (0 : Fin 2) * 5000 + 1 * p.val = t.val * 5000 + p.val; omega
    | ⟨1, _⟩ => show win0_2.index t (1 : Fin 2) * 64 + 1 * k.val = k.val; omega
  · intro k q
    show V c main_v19 (((cfg0.win 3).blk t).view.emb (ix2 k q)) = V c main_v19 _
    refine congrArg _ (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · intro k q
    show V c main_v20 (((cfg0.win 4).blk t).view.emb (ix2 k q)) = V c main_v20 _
    refine congrArg _ (funext fun a => Fin.ext ?_)
    match a with
    | ⟨0, _⟩ => show win0_4.index t (0 : Fin 2) * 64 + 1 * k.val = k.val; omega
    | ⟨1, _⟩ => show win0_4.index t (1 : Fin 2) * 64 + 1 * q.val = q.val; omega
  · intro q
    show V c main_v21 (((cfg0.win 5).blk t).view.emb (ix2 (0 : Fin 1) q)) = V c main_v21 _
    refine congrArg _ (funext fun a => Fin.ext ?_)
    match a with
    | ⟨0, _⟩ => show win0_5.index t (0 : Fin 2) * 1 + 1 * 0 = 0; omega
    | ⟨1, _⟩ => show win0_5.index t (1 : Fin 2) * 64 + 1 * q.val = q.val; omega

/-- An index of the output array is in step `t`'s block iff each coordinate is in the block's range on its axis. -/
theorem mem_blk (t : Fin cfg0.N) (i : S100000x64.Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v22).slice (win0_6.rect t)).set ↔ _
  rw [View.set_slice_whole, Rect.mem_set_unit]
  exact Iff.rfl

/-- Row `r` of the output is written back by step `r / 5000`. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hlt : (i 0).val / 5000 < cfg0.N := lt_of_lt_of_eq (by omega : (i 0).val / 5000 < 20) N_0.symm
  obtain ⟨-, -, -, -, -, -, -, -, -, -, -, -, e60, e61⟩ := index_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, hlt⟩ (1 : Fin 2) * 64 ≤ (i 1).val
      ∧ (i 1).val < win0_6.index ⟨(i 0).val / 5000, hlt⟩ (1 : Fin 2) * 64 + 64
    rw [e61]
    omega

/-- After the launch the output array holds the rectified layer value of the arrays the launch found, at every entry. -/
theorem final (c : Dev nD) : (dat0 V c).arrAt 6 cfg0.N = out V c :=
  (dat0 V c).arrAt_eq_of_cover 6 (out V c) (fun t _ => flushed_eq V c t) cover

end Cert.Sage.Region0

end
-- ==== Proof.SageRegion1.lean ====
/-
  The array the second launch leaves: every row's layer value.

  The same grid of 20 steps of 5000 rows as the first launch, over the second layer's arrays (the neighbour sums of the first
  layer's output, the same degree column, the first layer's output, the second pair of weight matrices and bias row), and no
  rectifier: after the launch the output array holds, at every (row, column), the layer value of the arrays as the launch
  found them.
-/
import proofs.«180251_j46351287058738_2_alg».proof.Proof.Gen.KernelIdeal.Frame
import proofs.«180251_j46351287058738_2_alg».proof.Proof.SagePayload
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the three row-blocked inputs and the output are at block (t, 0), the weights and
    the bias at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The array the launch leaves, as one function of the arrays it finds. -/
def out (c : Dev nD) : S100000x64.Idx → EReal := fun i =>
  layerAt (V c main_v32) (V c main_v8) (V c main_v22) (V c main_v33) (V c main_v34) (V c main_v35) (i 0) (i 1)

theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x1) zero_offsets,
    View.ld_unit_zero (S := S64x64) zero_offsets, View.ld_unit_zero (S := S1x64) zero_offsets]
  funext j
  show k1_pay1 (iblk1 V c 1 t) (iblk1 V c 0 t) (iblk1 V c 2 t) (iblk1 V c 3 t) (iblk1 V c 4 t) (iblk1 V c 5 t) j
      = out V c (((cfg1.win 6).blk t).view.emb j)
  obtain ⟨e00, e01, e10, e11, e20, e21, e30, e31, e40, e41, e50, e51, e60, e61⟩ := index_facts t
  have ht : t.val < 20 := lt_of_lt_of_eq t.isLt N_1
  have hj0 : (j 0).val < 5000 := (j 0).isLt
  have hj1 : (j 1).val < 64 := (j 1).isLt
  refine ((congrArg (k1_pay1 (iblk1 V c 1 t) (iblk1 V c 0 t) (iblk1 V c 2 t) (iblk1 V c 3 t) (iblk1 V c 4 t) (iblk1 V c 5 t))
      (eq_ix2 (n0 := 5000) (n1 := 64) j)).trans
    (Cert.Sage.Payload.pay1_apply (iblk1 V c 1 t) (iblk1 V c 0 t) (iblk1 V c 2 t) (iblk1 V c 3 t) (iblk1 V c 4 t)
      (iblk1 V c 5 t) (j 0) (j 1))).trans ?_
  unfold out
  have h0 : (⟨t.val * 5000 + (j 0).val, by omega⟩ : Fin 100000) = (((cfg1.win 6).blk t).view.emb j) 0 :=
    Fin.ext (by show t.val * 5000 + (j 0).val = win1_6.index t (0 : Fin 2) * 5000 + 1 * (j 0).val; omega)
  have h1 : (j 1 : Fin 64) = (((cfg1.win 6).blk t).view.emb j) 1 :=
    Fin.ext (by show (j 1).val = win1_6.index t (1 : Fin 2) * 64 + 1 * (j 1).val; omega)
  refine (layerAt_congr (fun p : Fin 5000 => (⟨t.val * 5000 + p.val, by have := p.isLt; omega⟩ : Fin 100000))
    (iblk1 V c 0 t) (iblk1 V c 1 t) (iblk1 V c 2 t) (iblk1 V c 3 t) (iblk1 V c 4 t) (iblk1 V c 5 t)
    (V c main_v32) (V c main_v8) (V c main_v22) (V c main_v33) (V c main_v34) (V c main_v35)
    ?_ ?_ ?_ ?_ ?_ ?_ (j 0) (j 1)).trans
    (congrArg₂ (layerAt (V c main_v32) (V c main_v8) (V c main_v22) (V c main_v33) (V c main_v34) (V c main_v35)) h0 h1)
  · intro p k
    show V c main_v32 (((cfg1.win 0).blk t).view.emb (ix2 p k)) = V c main_v32 _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · intro p
    show V c main_v8 (((cfg1.win 1).blk t).view.emb (ix2 p (0 : Fin 1))) = V c main_v8 _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  · intro p k
    show V c main_v22 (((cfg1.win 2).blk t).view.emb (ix2 p k)) = V c main_v22 _
    refine congrArg _ (funext fun a => Fin.ext ?_)
    match a with
    | ⟨0, _⟩ => show win1_2.index t (0 : Fin 2) * 5000 + 1 * p.val = t.val * 5000 + p.val; omega
    | ⟨1, _⟩ => show win1_2.index t (1 : Fin 2) * 64 + 1 * k.val = k.val; omega
  · intro k q
    show V c main_v33 (((cfg1.win 3).blk t).view.emb (ix2 k q)) = V c main_v33 _
    refine congrArg _ (funext fun a => Fin.ext ?_)
    match a with
    | ⟨0, _⟩ => show win1_3.index t (0 : Fin 2) * 64 + 1 * k.val = k.val; omega
    | ⟨1, _⟩ => show win1_3.index t (1 : Fin 2) * 64 + 1 * q.val = q.val; omega
  · intro k q
    show V c main_v34 (((cfg1.win 4).blk t).view.emb (ix2 k q)) = V c main_v34 _
    refine congrArg _ (funext fun a => Fin.ext ?_)
    match a with
    | ⟨0, _⟩ => show win1_4.index t (0 : Fin 2) * 64 + 1 * k.val = k.val; omega
    | ⟨1, _⟩ => show win1_4.index t (1 : Fin 2) * 64 + 1 * q.val = q.val; omega
  · intro q
    show V c main_v35 (((cfg1.win 5).blk t).view.emb (ix2 (0 : Fin 1) q)) = V c main_v35 _
    refine congrArg _ (funext fun a => Fin.ext ?_)
    match a with
    | ⟨0, _⟩ => show win1_5.index t (0 : Fin 2) * 1 + 1 * 0 = 0; omega
    | ⟨1, _⟩ => show win1_5.index t (1 : Fin 2) * 64 + 1 * q.val = q.val; omega

/-- An index of the output array is in step `t`'s block iff each coordinate is in the block's range on its axis. -/
theorem mem_blk (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_v36).slice (win1_6.rect t)).set ↔ _
  rw [View.set_slice_whole, Rect.mem_set_unit]
  exact Iff.rfl

/-- Row `r` of the output is written back by step `r / 5000`. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hlt : (i 0).val / 5000 < cfg1.N := lt_of_lt_of_eq (by omega : (i 0).val / 5000 < 20) N_1.symm
  obtain ⟨-, -, -, -, -, -, -, -, -, -, -, -, e60, e61⟩ := index_facts ⟨(i 0).val / 5000, hlt⟩
  refine ⟨⟨(i 0).val / 5000, hlt⟩, flush1_6 _, ?_⟩
  rw [mem_blk]
  intro a
  match a with
  | ⟨0, _⟩ =>
    show win1_6.index ⟨(i 0).val / 5000, hlt⟩ (0 : Fin 2) * 5000 ≤ (i 0).val
      ∧ (i 0).val < win1_6.index ⟨(i 0).val / 5000, hlt⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, hlt⟩ (1 : Fin 2) * 64 ≤ (i 1).val
      ∧ (i 1).val < win1_6.index ⟨(i 0).val / 5000, hlt⟩ (1 : Fin 2) * 64 + 64
    rw [e61]
    omega

/-- After the launch the output array holds the layer value of the arrays the launch found, at every entry. -/
theorem final (c : Dev nD) : (dat1 V c).arrAt 6 cfg1.N = out V c :=
  (dat1 V c).arrAt_eq_of_cover 6 (out V c) (fun t _ => flushed_eq V c t) cover

end Cert.Sage.Region1

end
-- ==== Proof.SageRef.lean ====
/-
  The reference's two layers, read at one entry.

  The reference computes on whole arrays: the neighbour sums divided by the degree clamped below by one (kept as a column,
  laid along the 64 columns), times the transposed first weight matrix, plus the node features times the transposed second
  one, plus the bias laid along the rows; a rectifier follows the first layer. Read at (p, q) through the operations' own
  read-at-an-index lemmas, each layer is `layerAt … p q` of: the neighbour sums, the degree kept as a column, the layer's
  input, the two transposed weight matrices and the bias as a row. The host's quotient, product into a sum, and maximum are
  the extended reals' own operations, the same the kernel's spell.
-/
import proofs.«180251_j46351287058738_2_alg».proof.Proof.Gen.ReferenceIdeal.Read
import proofs.«180251_j46351287058738_2_alg».proof.Proof.SageSpec

noncomputable section

namespace Cert.Sage.Ref

open Idealize.ShloMosaic Idealize.ShloMosaic.ValueIdx Cert.ReferenceIdeal Cert.ReferenceIdeal.Gen Cert.ReferenceIdeal.Read

/-- The nodes' in-degrees (a sum of ones scattered to each edge's target), kept as a 100000 × 1 column. -/
def degCol (x1 : (⟨S2x1200000, .i32⟩ : BufTy).Contents (Elt Ideal)) : (⟨S100000x1, .f32⟩ : BufTy).Contents (Elt Ideal) :=
  broadcastInDim S100000x1 ![0] bcast_S100000_S100000x1_0 (val_main_v17 (F := Ideal) x1)

/-- Entry (p, 0) of the degree column is node `p`'s degree. -/
theorem degCol_apply (x1 : (⟨S2x1200000, .i32⟩ : BufTy).Contents (Elt Ideal)) (p : Fin 100000) :
    degCol x1 (ix2 p (0 : Fin 1)) = val_main_v17 (F := Ideal) x1 (ix1 p) := by
  unfold degCol
  exact broadcastInDim_apply _ bcast_S100000_S100000x1_0 _ (ix2 p (0 : Fin 1)) (ix1 p) (fun a => match a with
    | ⟨0, _⟩ => by show p.val = if (100000 : Nat) = 1 then 0 else p.val; rw [if_neg (by decide)])

/-- The second layer recomputes the degrees by the same operations on the same edge list. -/
theorem deg_again (x1 : (⟨S2x1200000, .i32⟩ : BufTy).Contents (Elt Ideal)) :
    val_main_v45 (F := Ideal) x1 = val_main_v17 (F := Ideal) x1 := rfl

/-- The first layer with its rectifier, at (p, q). -/
theorem layer1_apply (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (p : Fin 100000) (q : Fin 64) :
    val_main_v31 (F := Ideal) x0 x1 x2 x3 x4 (ix2 p q)
      = max (layerAt (val_main_v13 (F := Ideal) x0 x1) (degCol x1) x0 (val_main_v23 (F := Ideal) x2)
          (val_main_v25 (F := Ideal) x3) (val_main_v28 (F := Ideal) x4) p q) zeroW := by
  have el24 : ∀ k : Fin 64, lidx_main_v24 (ix2 p q) k = ix2 p k := fun k =>
    funext fun a => Fin.ext (by match a with | ⟨0, _⟩ => rfl | ⟨1, _⟩ => rfl)
  have er24 : ∀ k : Fin 64, ridx_main_v24 (ix2 p q) k = ix2 k q := fun k =>
    funext fun a => Fin.ext (by match a with | ⟨0, _⟩ => rfl | ⟨1, _⟩ => rfl)
  have el26 : ∀ k : Fin 64, lidx_main_v26 (ix2 p q) k = ix2 p k := fun k =>
    funext fun a => Fin.ext (by match a with | ⟨0, _⟩ => rfl | ⟨1, _⟩ => rfl)
  have er26 : ∀ k : Fin 64, ridx_main_v26 (ix2 p q) k = ix2 k q := fun k =>
    funext fun a => Fin.ext (by match a with | ⟨0, _⟩ => rfl | ⟨1, _⟩ => rfl)
  have e29 : idx_main_v29 (ix2 p q) = ix2 (0 : Fin 1) q :=
    funext fun a => Fin.ext (by match a with | ⟨0, _⟩ => rfl | ⟨1, _⟩ => rfl)
  have e20 : ∀ k : Fin 64, idx_main_v20 (idx_main_v21 (ix2 p k)) = ix1 p := fun k =>
    funext fun a => Fin.ext (by match a with | ⟨0, _⟩ => rfl)
  rw [val_main_v31_apply, val_main_v30_apply, val_main_v27_apply, val_main_v24_apply, val_main_v26_apply,
    val_main_v29_apply, val_main_call0_v0_apply, val_main_call0_cst_apply]
  unfold layerAt
  refine congrArg (fun z => max z zeroW) (congrArg₂ (· + ·) (congrArg₂ (· + ·)
    (Finset.sum_congr rfl fun k _ => ?_) (Finset.sum_congr rfl fun k _ => ?_)) ?_)
  · rw [el24 k, er24 k, val_main_v22_apply, val_main_v21_apply, val_main_v20_apply, e20 k, val_main_v19_apply,
      val_main_v18_apply, val_main_cst_3_apply, degCol_apply]
    rfl
  · rw [el26 k, er26 k]
  · rw [e29]

/-- The second layer, at (p, q): its input is the first layer's result. -/
theorem layer2_apply (x0 : (⟨S100000x64, .f32⟩ : BufTy).Contents (Elt Ideal)) (x1 : (⟨S2x1200000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (p : Fin 100000) (q : Fin 64) :
    val_main_v58 (F := Ideal) x0 x1 x2 x3 x4 x5 x6 x7 (ix2 p q)
      = layerAt (val_main_v41 (F := Ideal) x0 x1 x2 x3 x4) (degCol x1) (val_main_v31 (F := Ideal) x0 x1 x2 x3 x4)
          (val_main_v51 (F := Ideal) x5) (val_main_v53 (F := Ideal) x6) (val_main_v56 (F := Ideal) x7) p q := by
  have el52 : ∀ k : Fin 64, lidx_main_v52 (ix2 p q) k = ix2 p k := fun k =>
    funext fun a => Fin.ext (by match a with | ⟨0, _⟩ => rfl | ⟨1, _⟩ => rfl)
  have er52 : ∀ k : Fin 64, ridx_main_v52 (ix2 p q) k = ix2 k q := fun k =>
    funext fun a => Fin.ext (by match a with | ⟨0, _⟩ => rfl | ⟨1, _⟩ => rfl)
  have el54 : ∀ k : Fin 64, lidx_main_v54 (ix2 p q) k = ix2 p k := fun k =>
    funext fun a => Fin.ext (by match a with | ⟨0, _⟩ => rfl | ⟨1, _⟩ => rfl)
  have er54 : ∀ k : Fin 64, ridx_main_v54 (ix2 p q) k = ix2 k q := fun k =>
    funext fun a => Fin.ext (by match a with | ⟨0, _⟩ => rfl | ⟨1, _⟩ => rfl)
  have e57 : idx_main_v57 (ix2 p q) = ix2 (0 : Fin 1) q :=
    funext fun a => Fin.ext (by match a with | ⟨0, _⟩ => rfl | ⟨1, _⟩ => rfl)
  have e48 : ∀ k : Fin 64, idx_main_v48 (idx_main_v49 (ix2 p k)) = ix1 p := fun k =>
    funext fun a => Fin.ext (by match a with | ⟨0, _⟩ => rfl)
  rw [val_main_v58_apply, val_main_v55_apply, val_main_v52_apply, val_main_v54_apply, val_main_v57_apply]
  unfold layerAt
  refine congrArg₂ (· + ·) (congrArg₂ (· + ·)
    (Finset.sum_congr rfl fun k _ => ?_) (Finset.sum_congr rfl fun k _ => ?_)) ?_
  · rw [el52 k, er52 k, val_main_v50_apply, val_main_v49_apply, val_main_v48_apply, e48 k, val_main_v47_apply,
      val_main_v46_apply, val_main_cst_9_apply, deg_again, degCol_apply]
    rfl
  · rw [el54 k, er54 k]
  · rw [e57]

end Cert.Sage.Ref

end
-- ==== Proof.SageHost.lean ====
/-
  The arrays the two launches find and leave, as functions of the program's arguments.

  Before the first launch the host computes, from the edge list, the nodes' in-degrees (kept as a column) and the sums of the
  neighbours' input features, transposes the first pair of weight matrices and casts the first bias to a row. These are, term
  for term, the reference's own intermediate values of the same arguments — the same slices of the edge list, the same gather
  and scatter-add, the same transposes — except the bias row, which the reference lays along a unit axis where the kernel
  casts it: the same row. So the first launch leaves the reference's first layer (rectified), entry by entry.

  Between the launches the host gathers and scatter-adds the first launch's output over the same edge list — the
  reference's second neighbour sum, once that output is known to be the reference's first layer — and prepares the second
  weights and bias; the degree column is the one computed before the first launch, and the reference's second degree
  computation repeats the first. So the second launch leaves the reference's result, entry by entry.
-/
import proofs.«180251_j46351287058738_2_alg».proof.Proof.Gen.KernelIdeal.Frame
import proofs.«180251_j46351287058738_2_alg».proof.Proof.SageRegion0
import proofs.«180251_j46351287058738_2_alg».proof.Proof.SageRegion1
import proofs.«180251_j46351287058738_2_alg».proof.Proof.SageRef
import Idealize.ShloMosaic.Lib.StableHlo.Run
import Idealize.ShloMosaic.Lib.Pipeline.Value

set_option maxRecDepth 16384

noncomputable section

namespace Cert.Sage.Host

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## The bias as a row -/

/-- A vector of 64 entries cast to a 1 × 64 row is the vector laid along a leading unit axis: entry (0, q) of either is
    entry q of the vector. -/
theorem biasRow_eq (b : S64.Idx → EReal) :
    shapeCast S1x64 b shapeCasts_S64_S1x64 = Cert.ReferenceIdeal.Read.val_main_v28 (F := Ideal) b := by
  funext i
  rw [Cert.ReferenceIdeal.Read.val_main_v28_apply]
  refine shapeCast_apply b shapeCasts_S64_S1x64 i (Cert.ReferenceIdeal.Read.idx_main_v28 i) ?_
  rw [Shape.rowMajor_val_two, Shape.rowMajor_val_one]
  show (i 1).val = (i 0).val * 64 + (i 1).val
  have h0 : (i 0).val < 1 := (i 0).isLt
  omega

/-- The reference lays its second bias along a unit axis by the same operation as its first. -/
theorem biasRow_again (b : S64.Idx → EReal) : Cert.ReferenceIdeal.Read.val_main_v56 (F := Ideal) b = Cert.ReferenceIdeal.Read.val_main_v28 (F := Ideal) b := rfl

/-! ## What the first launch finds -/

theorem v1_sum : (V1 m ρ c main_v18 : S100000x64.Idx → EReal) = Cert.ReferenceIdeal.Read.val_main_v13 (F := Ideal) (m ((c : Thread nD τ).loc main_arg0)) (m ((c : Thread nD τ).loc main_arg1)) := by
  show StableHlo.after hostOps0 (W0 m ρ c) (Proc.devRef .tc main_v18) = _
  after_results_simp <;> rfl

theorem v1_deg : (V1 m ρ c main_v8 : S100000x1.Idx → EReal) = Cert.Sage.Ref.degCol (m ((c : Thread nD τ).loc main_arg1)) := by
  show StableHlo.after hostOps0 (W0 m ρ c) (Proc.devRef .tc main_v8) = _
  after_results_simp <;> rfl

theorem v1_x : (V1 m ρ c main_arg0 : S100000x64.Idx → EReal) = (m ((c : Thread nD τ).loc main_arg0)) := by
  show StableHlo.after hostOps0 (W0 m ρ c) (Proc.devRef .tc main_arg0) = _
  after_results_simp <;> rfl

theorem v1_wl : (V1 m ρ c main_v19 : S64x64.Idx → EReal) = Cert.ReferenceIdeal.Read.val_main_v23 (F := Ideal) (m ((c : Thread nD τ).loc main_arg2)) := by
  show StableHlo.after hostOps0 (W0 m ρ c) (Proc.devRef .tc main_v19) = _
  after_results_simp <;> rfl

theorem v1_wr : (V1 m ρ c main_v20 : S64x64.Idx → EReal) = Cert.ReferenceIdeal.Read.val_main_v25 (F := Ideal) (m ((c : Thread nD τ).loc main_arg3)) := by
  show StableHlo.after hostOps0 (W0 m ρ c) (Proc.devRef .tc main_v20) = _
  after_results_simp <;> rfl

theorem v1_b : (V1 m ρ c main_v21 : S1x64.Idx → EReal) = Cert.ReferenceIdeal.Read.val_main_v28 (F := Ideal) (m ((c : Thread nD τ).loc main_arg4)) := by
  refine Eq.trans ?_ (biasRow_eq (m ((c : Thread nD τ).loc main_arg4)))
  show StableHlo.after hostOps0 (W0 m ρ c) (Proc.devRef .tc main_v21) = _
  after_results_simp <;> rfl

/-! ## What the first launch leaves -/

/-- The first launch's output array is the reference's rectified first layer. -/
theorem first_layer : (W2 m ρ c (Proc.devRef .tc main_v22) : S100000x64.Idx → EReal)
    = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 6).trans ((Cert.Sage.Region0.final (V1 m ρ) c).trans ?_)
  funext i
  obtain ⟨p, q, rfl⟩ : ∃ (p : Fin 100000) (q : Fin 64), i = ix2 p q := ⟨i 0, i 1, eq_ix2 i⟩
  unfold Cert.Sage.Region0.out
  rw [v1_sum, v1_deg, v1_x, v1_wl, v1_wr, v1_b]
  exact (Cert.Sage.Ref.layer1_apply (m ((c : Thread nD τ).loc main_arg0)) (m ((c : Thread nD τ).loc main_arg1)) (m ((c : Thread nD τ).loc main_arg2)) (m ((c : Thread nD τ).loc main_arg3)) (m ((c : Thread nD τ).loc main_arg4)) p q).symm

/-! ## What the host stretch between the launches reads: buffers the first launch did not write -/

theorem w2_src : (W2 m ρ c (Proc.devRef .tc main_v1) : S1200000.Idx → BitVec 32) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results_simp <;> rfl

theorem w2_dst : (W2 m ρ c (Proc.devRef .tc main_v3) : S1200000.Idx → BitVec 32) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results_simp <;> rfl

theorem w2_deg : (W2 m ρ c (Proc.devRef .tc main_v8) : S100000x1.Idx → EReal) = Cert.Sage.Ref.degCol (m ((c : Thread nD τ).loc main_arg1)) :=
  (W2_arr m ρ c 1).trans ((((dat0 (V1 m ρ) c).arrAt_in 1 rfl _).trans (A_eq0 (V1 m ρ) c 1)).trans (v1_deg m ρ c))

theorem w2_arg5 : (W2 m ρ c (Proc.devRef .tc main_arg5) : S64x64.Idx → EReal) = (m ((c : Thread nD τ).loc main_arg5)) := by
  refine (W2_of_ne m ρ c main_arg5 (by decide)).trans ?_
  show StableHlo.after hostOps0 (W0 m ρ c) (Proc.devRef .tc main_arg5) = _
  after_results_simp <;> rfl

theorem w2_arg6 : (W2 m ρ c (Proc.devRef .tc main_arg6) : S64x64.Idx → EReal) = (m ((c : Thread nD τ).loc main_arg6)) := by
  refine (W2_of_ne m ρ c main_arg6 (by decide)).trans ?_
  show StableHlo.after hostOps0 (W0 m ρ c) (Proc.devRef .tc main_arg6) = _
  after_results_simp <;> rfl

theorem w2_arg7 : (W2 m ρ c (Proc.devRef .tc main_arg7) : S64.Idx → EReal) = (m ((c : Thread nD τ).loc main_arg7)) := by
  refine (W2_of_ne m ρ c main_arg7 (by decide)).trans ?_
  show StableHlo.after hostOps0 (W0 m ρ c) (Proc.devRef .tc main_arg7) = _
  after_results_simp <;> rfl

/-! ## What the second launch finds -/

theorem v3_sum : (V3 m ρ c main_v32 : S100000x64.Idx → EReal)
    = Cert.ReferenceIdeal.Read.val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v32) = _
  after_results_simp
  rw [first_layer, w2_src, w2_dst]
  rfl

theorem v3_deg : (V3 m ρ c main_v8 : S100000x1.Idx → EReal) = Cert.Sage.Ref.degCol (m ((c : Thread nD τ).loc main_arg1)) := by
  show StableHlo.after hostOps1 (W2 m ρ c) (Proc.devRef .tc main_v8) = _
  after_results_simp
  exact w2_deg m ρ c

theorem v3_x : (V3 m ρ c main_v22 : S100000x64.Idx → EReal)
    = Cert.ReferenceIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v22) = _
  after_results_simp
  exact first_layer m ρ c

theorem v3_wl : (V3 m ρ c main_v33 : S64x64.Idx → EReal) = Cert.ReferenceIdeal.Read.val_main_v51 (F := Ideal) (m ((c : Thread nD τ).loc main_arg5)) := by
  show StableHlo.after hostOps1 (W2 m ρ c) (Proc.devRef .tc main_v33) = _
  after_results_simp
  rw [w2_arg5]
  rfl

theorem v3_wr : (V3 m ρ c main_v34 : S64x64.Idx → EReal) = Cert.ReferenceIdeal.Read.val_main_v53 (F := Ideal) (m ((c : Thread nD τ).loc main_arg6)) := by
  show StableHlo.after hostOps1 (W2 m ρ c) (Proc.devRef .tc main_v34) = _
  after_results_simp
  rw [w2_arg6]
  rfl

theorem v3_b : (V3 m ρ c main_v35 : S1x64.Idx → EReal) = Cert.ReferenceIdeal.Read.val_main_v56 (F := Ideal) (m ((c : Thread nD τ).loc main_arg7)) := by
  refine Eq.trans ?_ ((biasRow_eq (m ((c : Thread nD τ).loc main_arg7))).trans (biasRow_again (m ((c : Thread nD τ).loc main_arg7))).symm)
  show StableHlo.after hostOps1 (W2 m ρ c) (Proc.devRef .tc main_v35) = _
  after_results_simp
  rw [w2_arg7]
  rfl

/-! ## What the second launch leaves -/

/-- The program's result array is the reference's result, as a function of the arguments. -/
theorem result_eq : (W4 m ρ c (Proc.devRef .tc main_v36) : S100000x64.Idx → EReal)
    = Cert.ReferenceIdeal.Read.val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 6).trans ((Cert.Sage.Region1.final (V3 m ρ) c).trans ?_)
  funext i
  obtain ⟨p, q, rfl⟩ : ∃ (p : Fin 100000) (q : Fin 64), i = ix2 p q := ⟨i 0, i 1, eq_ix2 i⟩
  unfold Cert.Sage.Region1.out
  rw [v3_sum, v3_deg, v3_x, v3_wl, v3_wr, v3_b]
  exact (Cert.Sage.Ref.layer2_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) p q).symm

end Cert.Sage.Host

end
-- ==== Proof.lean ====
/-
  A two-layer graph convolution with mean aggregation, as a kernel program and as a plain array program, computes one
  function on the extended reals.

  Each layer maps node features `X` (100000 × 64), an edge list, two 64 × 64 weight matrices and a bias to

      (S / max(deg, 1)) · W_lᵀ  +  X · W_rᵀ  +  b,

  where `S` is, per node, the sum of the features of the sources of its incoming edges and `deg` the number of those
  edges; a rectifier `max(·, 0)` sits between the layers. The kernel program computes `S` and `deg` by the host's gather and
  scatter-add (the degree once, kept as a column), and the dense part — divide, two matrix products, bias, rectifier — in a
  grid of 20 steps of 5000 rows per layer; the reference computes everything on whole arrays and the degree once per layer.

  On the extended reals a change of float format is the identity and each matrix product is the plain finite sum of
  products, so both programs evaluate the same expression in the same order of operations, entry by entry; the only
  differences are arrangements: rows computed block by block, the degree clamped after instead of before it is laid out as a
  column, a bias cast to a row instead of laid along a unit axis. No law of arithmetic beyond reading those arrangements is
  used, nothing needs the inputs finite, and the gather and scatter-add are never opened: they are the same operations on
  the same operands on both sides.

  The modules: `SageSpec` (the layer at one entry), `SagePayload` (a grid step's stored block is the layer of its loaded
  blocks), `SageRegion0` / `SageRegion1` (each launch leaves the layer of the arrays it finds), `SageRef` (the reference's
  layers at an entry), `SageHost` (the arrays the launches find are the reference's intermediate values; the result array
  is the reference's result), `SageRun` (the kernel program's run with its result named). The three frames are the generated
  ones; the idealization rewrote nothing, so there is nothing to preserve.
-/
import proofs.«180251_j46351287058738_2_alg».proof.Defs
import proofs.«180251_j46351287058738_2_alg».proof.Proof.Gen.Kernel
import proofs.«180251_j46351287058738_2_alg».proof.Proof.Gen.Kernel.Frame
import proofs.«180251_j46351287058738_2_alg».proof.Proof.Gen.KernelIdeal
import proofs.«180251_j46351287058738_2_alg».proof.Proof.Gen.KernelIdeal.Frame
import proofs.«180251_j46351287058738_2_alg».proof.Proof.Gen.ReferenceIdeal
import proofs.«180251_j46351287058738_2_alg».proof.Proof.Gen.Pre_finite_inputs
import proofs.«180251_j46351287058738_2_alg».proof.Proof.Gen.ReferenceIdeal.Run
import proofs.«180251_j46351287058738_2_alg».proof.Proof.Gen.ReferenceIdeal.Read
import proofs.«180251_j46351287058738_2_alg».proof.Proof.SageRun
import proofs.«180251_j46351287058738_2_alg».proof.Proof.SageHost
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result term of those arguments in
    their result arrays: the kernel program by the arrays its two launches find and leave, the reference by its run. -/
theorem algebraic : Cert.algebraic_KernelIdeal_ReferenceIdeal := by
  intro m ρ m' ρ' _ hagree
  refine ⟨fun c => Cert.ReferenceIdeal.Read.val_main_v58 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Host.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
